-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S800000 : Shape := ⟨1, ![800000]⟩
abbrev S512x256 : Shape := ⟨2, ![512, 256]⟩
abbrev S256 : Shape := ⟨1, ![256]⟩
abbrev S256x256 : Shape := ⟨2, ![256, 256]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg8 : FVec F S256 .f32) (main_arg9 : FVec F S256x256 .f32) (main_arg10 : FVec F S256 .f32) (main_arg11 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x512 .f32) (main_arg1 : IVec S2x800000 32) (main_arg2 : FVec F S800000 .f32) (main_arg3 : FVec F S512x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_v13 main_v16
-- ==== Kernel.lean ====
abbrev S50000x512 : Shape := ⟨2, ![50000, 512]⟩
abbrev S2x800000 : Shape := ⟨2, ![2, 800000]⟩
abbrev S800000 : Shape := ⟨1, ![800000]⟩
abbrev S512x256 : Shape := ⟨2, ![512, 256]⟩
abbrev S256 : Shape := ⟨1, ![256]⟩
abbrev S256x256 : Shape := ⟨2, ![256, 256]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S5000x512 : Shape := ⟨2, ![5000, 512]⟩
abbrev S5000x256 : Shape := ⟨2, ![5000, 256]⟩
abbrev S850000x256 : Shape := ⟨2, ![850000, 256]⟩
abbrev S1x256 : Shape := ⟨2, ![1, 256]⟩

abbrev nBuf : Space → Nat
  | .hbm => 152
  | .vmem => 20
  | .smem => 0
  | _ => 0

abbrev hbmTy0_0 (i : Nat) : BufTy := match i % 128 with
  | 0 => ⟨S50000x512, .f32⟩
  | 1 => ⟨S2x800000, .i32⟩
  | 2 => ⟨S800000, .f32⟩
  | 3 => ⟨S512x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256, .f32⟩
  | 12 => ⟨S1x800000, .i32⟩
  | 13 => ⟨S800000, .i32⟩
  | 14 => ⟨S50000, .i32⟩
  | 15 => ⟨S850000, .i32⟩
  | 16 => ⟨S1x800000, .i32⟩
  | 17 => ⟨S800000, .i32⟩
  | 18 => ⟨S50000, .i32⟩
  | 19 => ⟨S850000, .i32⟩
  | 20 => ⟨S_, .f32⟩
  | 21 => ⟨S50000, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S_, .f32⟩
  | 28 => ⟨S50000, .f32⟩
  | 29 => ⟨S50000, .i1⟩
  | 30 => ⟨S_, .f32⟩
  | 31 => ⟨S50000, .f32⟩
  | 32 => ⟨S50000, .i1⟩
  | 33 => ⟨S_, .f32⟩
  | 34 => ⟨S_, .f32⟩
  | 35 => ⟨S50000, .f32⟩
  | 36 => ⟨S50000, .f32⟩
  | 37 => ⟨S50000, .f32⟩
  | 38 => ⟨S_, .f32⟩
  | 39 => ⟨S_, .f32⟩
  | 40 => ⟨S50000, .f32⟩
  | 41 => ⟨S50000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000, .f32⟩
  | 61 => ⟨S850000, .f32⟩
  | 62 => ⟨S50000x256, .f32⟩
  | 63 => ⟨S_, .i32⟩
  | 64 => ⟨S850000, .i32⟩
  | 65 => ⟨S850000, .i1⟩
  | 66 => ⟨S_, .i32⟩
  | 67 => ⟨S850000, .i32⟩
  | 68 => ⟨S850000, .i32⟩
  | 69 => ⟨S850000, .i32⟩
  | 70 => ⟨S850000x1, .i32⟩
  | 71 => ⟨S850000x256, .f32⟩
  | 72 => ⟨S850000x1, .f32⟩
  | 73 => ⟨S850000x256, .f32⟩
  | 74 => ⟨S850000x256, .f32⟩
  | 75 => ⟨S_, .f32⟩
  | 76 => ⟨S50000x256, .f32⟩
  | 77 => ⟨S850000x1, .i32⟩
  | 78 => ⟨S50000x256, .f32⟩
  | 79 => ⟨S1x256, .f32⟩
  | 80 => ⟨S50000x256, .f32⟩
  | 81 => ⟨S50000x256, .f32⟩
  | 82 => ⟨S50000x256, .f32⟩
  | 83 => ⟨S_, .i32⟩
  | 84 => ⟨S850000, .i32⟩
  | 85 => ⟨S850000, .i1⟩
  | 86 => ⟨S_, .i32⟩
  | 87 => ⟨S850000, .i32⟩
  | 88 => ⟨S850000, .i32⟩
  | 89 => ⟨S850000, .i32⟩
  | 90 => ⟨S850000x1, .i32⟩
  | 91 => ⟨S850000x256, .f32⟩
  | 92 => ⟨S850000x1, .f32⟩
  | 93 => ⟨S850000x256, .f32⟩
  | 94 => ⟨S850000x256, .f32⟩
  | 95 => ⟨S_, .f32⟩
  | 96 => ⟨S50000x256, .f32⟩
  | 97 => ⟨S850000x1, .i32⟩
  | 98 => ⟨S50000x256, .f32⟩
  | 99 => ⟨S1x256, .f32⟩
  | 100 => ⟨S50000x256, .f32⟩
  | 101 => ⟨S50000x256, .f32⟩
  | 102 => ⟨S50000x256, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000x256, .f32⟩
  | 112 => ⟨S850000x1, .f32⟩
  | 113 => ⟨S850000x256, .f32⟩
  | 114 => ⟨S850000x256, .f32⟩
  | 115 => ⟨S_, .f32⟩
  | 116 => ⟨S50000x256, .f32⟩
  | 117 => ⟨S850000x1, .i32⟩
  | 118 => ⟨S50000x256, .f32⟩
  | 119 => ⟨S1x256, .f32⟩
  | 120 => ⟨S50000x256, .f32⟩
  | 121 => ⟨S50000x256, .f32⟩
  | 122 => ⟨S50000x256, .f32⟩
  | 123 => ⟨S_, .i32⟩
  | 124 => ⟨S850000, .i32⟩
  | 125 => ⟨S850000, .i1⟩
  | 126 => ⟨S_, .i32⟩
  | 127 => ⟨S850000, .i32⟩
  | _ => ⟨S50000x512, .f32⟩

abbrev hbmTy0_1 (i : Nat) : BufTy := match i % 128 with
  | 0 => ⟨S850000, .i32⟩
  | 1 => ⟨S850000, .i32⟩
  | 2 => ⟨S850000x1, .i32⟩
  | 3 => ⟨S850000x256, .f32⟩
  | 4 => ⟨S850000x1, .f32⟩
  | 5 => ⟨S850000x256, .f32⟩
  | 6 => ⟨S850000x256, .f32⟩
  | 7 => ⟨S_, .f32⟩
  | 8 => ⟨S50000x256, .f32⟩
  | 9 => ⟨S850000x1, .i32⟩
  | 10 => ⟨S50000x256, .f32⟩
  | 11 => ⟨S1x256, .f32⟩
  | 12 => ⟨S50000x256, .f32⟩
  | 13 => ⟨S50000x256, .f32⟩
  | 14 => ⟨S_, .f32⟩
  | 15 => ⟨S50000x256, .f32⟩
  | 16 => ⟨S50000x256, .f32⟩
  | 17 => ⟨S_, .f32⟩
  | 18 => ⟨S50000x256, .f32⟩
  | 19 => ⟨S50000x256, .f32⟩
  | 20 => ⟨S1x256, .f32⟩
  | 21 => ⟨S50000x256, .f32⟩
  | 22 => ⟨S50000x256, .f32⟩
  | 23 => ⟨S50000x256, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S5000x512, .f32⟩
  | .local _ .vmem, ⟨1, _⟩ => ⟨S5000x512, .f32⟩
  | .local _ .vmem, ⟨2, _⟩ => ⟨S512x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S256x256, .f32⟩
  | .local _ .vmem, ⟨13, _⟩ => ⟨S5000x256, .f32⟩
  | .local _ .vmem, ⟨14, _⟩ => ⟨S5000x256, .f32⟩
  | .local _ .vmem, ⟨15, _⟩ => ⟨S5000x256, .f32⟩
  | .local _ .vmem, ⟨16, _⟩ => ⟨S5000x256, .f32⟩
  | .local _ .vmem, ⟨17, _⟩ => ⟨S256x256, .f32⟩
  | .local _ .vmem, ⟨18, _⟩ => ⟨S5000x256, .f32⟩
  | .local _ .vmem, ⟨19, _⟩ => ⟨S5000x256, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_call1_v0 : Ref sig .tc := ⟨.hbm, 39, rfl⟩
abbrev main_call1_v1 : Ref sig .tc := ⟨.hbm, 40, rfl⟩
abbrev main_v19 : Ref sig .tc := ⟨.hbm, 41, rfl⟩
abbrev main_c : Ref sig .tc := ⟨.hbm, 42, rfl⟩
abbrev main_v20 : Ref sig .tc := ⟨.hbm, 43, rfl⟩
abbrev main_v21 : Ref sig .tc := ⟨.hbm, 44, rfl⟩
abbrev main_c_5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_6 : Ref sig .tc := ⟨.hbm, 52, rfl⟩
abbrev main_v28 : Ref sig .tc := ⟨.hbm, 53, rfl⟩
abbrev main_v29 : Ref sig .tc := ⟨.hbm, 54, rfl⟩
abbrev main_c_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_8 : Ref sig .tc := ⟨.hbm, 63, rfl⟩
abbrev main_v37 : Ref sig .tc := ⟨.hbm, 64, rfl⟩
abbrev main_v38 : Ref sig .tc := ⟨.hbm, 65, rfl⟩
abbrev main_c_9 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_10 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_c_11 : Ref sig .tc := ⟨.hbm, 83, rfl⟩
abbrev main_v54 : Ref sig .tc := ⟨.hbm, 84, rfl⟩
abbrev main_v55 : Ref sig .tc := ⟨.hbm, 85, rfl⟩
abbrev main_c_12 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_13 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_14 : Ref sig .tc := ⟨.hbm, 103, rfl⟩
abbrev main_v71 : Ref sig .tc := ⟨.hbm, 104, rfl⟩
abbrev main_v72 : Ref sig .tc := ⟨.hbm, 105, rfl⟩
abbrev main_c_15 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_16 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_c_17 : Ref sig .tc := ⟨.hbm, 123, rfl⟩
abbrev main_v88 : Ref sig .tc := ⟨.hbm, 124, rfl⟩
abbrev main_v89 : Ref sig .tc := ⟨.hbm, 125, rfl⟩
abbrev main_c_18 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_19 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_20 : Ref sig .tc := ⟨.hbm, 142, rfl⟩
abbrev main_v104 : Ref sig .tc := ⟨.hbm, 143, rfl⟩
abbrev main_v105 : Ref sig .tc := ⟨.hbm, 144, rfl⟩
abbrev main_cst_21 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S5000x256_S5000x256_0_0 : ∀ a, (![0, 0] : Fin 2 → Nat) a + S5000x256.size a ≤ S5000x256.size a
  h_S5000x256 : 0 < S5000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x512_S512x256_S5000x256_1_0_0_1_n_n_wf : DotDims.WF S5000x512 S512x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x256.size a ≤ S50000x256.size a
  hwx3_2 : ∀ i : grid3.Coords, EltTy.bits .f32 = 32 ∨ (Rect.block (s := S50000x256) S5000x256.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x512_S512x256_S5000x256_1_0_0_1_n_n : DotDims S5000x512 S512x256 S5000x256 where
  lhsContracting := [1]
  rhsContracting := [0]
  lhsNonContracting := [0]
  rhsNonContracting := [1]
  lhsBatch := []
  rhsBatch := []
  wf := dot_S5000x512_S512x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v69) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v70) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v86) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v87) S5000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S800000 : Shape := ⟨1, ![800000]⟩
abbrev S512x256 : Shape := ⟨2, ![512, 256]⟩
abbrev S256 : Shape := ⟨1, ![256]⟩
abbrev S256x256 : Shape := ⟨2, ![256, 256]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩

abbrev nBuf : Space → Nat
  | .hbm => 152
  | .vmem => 0
  | .smem => 0
  | _ => 0

abbrev hbmTy0_0 (i : Nat) : BufTy := match i % 128 with
  | 0 => ⟨S50000x512, .f32⟩
  | 1 => ⟨S2x800000, .i32⟩
  | 2 => ⟨S800000, .f32⟩
  | 3 => ⟨S512x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256, .f32⟩
  | 12 => ⟨S1x800000, .i32⟩
  | 13 => ⟨S800000, .i32⟩
  | 14 => ⟨S50000, .i32⟩
  | 15 => ⟨S850000, .i32⟩
  | 16 => ⟨S1x800000, .i32⟩
  | 17 => ⟨S800000, .i32⟩
  | 18 => ⟨S50000, .i32⟩
  | 19 => ⟨S850000, .i32⟩
  | 20 => ⟨S_, .f32⟩
  | 21 => ⟨S50000, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S_, .f32⟩
  | 28 => ⟨S50000, .f32⟩
  | 29 => ⟨S50000, .i1⟩
  | 30 => ⟨S_, .f32⟩
  | 31 => ⟨S50000, .f32⟩
  | 32 => ⟨S50000, .i1⟩
  | 33 => ⟨S_, .f32⟩
  | 34 => ⟨S_, .f32⟩
  | 35 => ⟨S50000, .f32⟩
  | 36 => ⟨S50000, .f32⟩
  | 37 => ⟨S50000, .f32⟩
  | 38 => ⟨S_, .f32⟩
  | 39 => ⟨S_, .f32⟩
  | 40 => ⟨S50000, .f32⟩
  | 41 => ⟨S50000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000, .f32⟩
  | 61 => ⟨S850000, .f32⟩
  | 62 => ⟨S50000x256, .f32⟩
  | 63 => ⟨S_, .i32⟩
  | 64 => ⟨S850000, .i32⟩
  | 65 => ⟨S850000, .i1⟩
  | 66 => ⟨S_, .i32⟩
  | 67 => ⟨S850000, .i32⟩
  | 68 => ⟨S850000, .i32⟩
  | 69 => ⟨S850000, .i32⟩
  | 70 => ⟨S850000x1, .i32⟩
  | 71 => ⟨S850000x256, .f32⟩
  | 72 => ⟨S850000x1, .f32⟩
  | 73 => ⟨S850000x256, .f32⟩
  | 74 => ⟨S850000x256, .f32⟩
  | 75 => ⟨S_, .f32⟩
  | 76 => ⟨S50000x256, .f32⟩
  | 77 => ⟨S850000x1, .i32⟩
  | 78 => ⟨S50000x256, .f32⟩
  | 79 => ⟨S1x256, .f32⟩
  | 80 => ⟨S50000x256, .f32⟩
  | 81 => ⟨S50000x256, .f32⟩
  | 82 => ⟨S50000x256, .f32⟩
  | 83 => ⟨S_, .i32⟩
  | 84 => ⟨S850000, .i32⟩
  | 85 => ⟨S850000, .i1⟩
  | 86 => ⟨S_, .i32⟩
  | 87 => ⟨S850000, .i32⟩
  | 88 => ⟨S850000, .i32⟩
  | 89 => ⟨S850000, .i32⟩
  | 90 => ⟨S850000x1, .i32⟩
  | 91 => ⟨S850000x256, .f32⟩
  | 92 => ⟨S850000x1, .f32⟩
  | 93 => ⟨S850000x256, .f32⟩
  | 94 => ⟨S850000x256, .f32⟩
  | 95 => ⟨S_, .f32⟩
  | 96 => ⟨S50000x256, .f32⟩
  | 97 => ⟨S850000x1, .i32⟩
  | 98 => ⟨S50000x256, .f32⟩
  | 99 => ⟨S1x256, .f32⟩
  | 100 => ⟨S50000x256, .f32⟩
  | 101 => ⟨S50000x256, .f32⟩
  | 102 => ⟨S50000x256, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000x256, .f32⟩
  | 112 => ⟨S850000x1, .f32⟩
  | 113 => ⟨S850000x256, .f32⟩
  | 114 => ⟨S850000x256, .f32⟩
  | 115 => ⟨S_, .f32⟩
  | 116 => ⟨S50000x256, .f32⟩
  | 117 => ⟨S850000x1, .i32⟩
  | 118 => ⟨S50000x256, .f32⟩
  | 119 => ⟨S1x256, .f32⟩
  | 120 => ⟨S50000x256, .f32⟩
  | 121 => ⟨S50000x256, .f32⟩
  | 122 => ⟨S50000x256, .f32⟩
  | 123 => ⟨S_, .i32⟩
  | 124 => ⟨S850000, .i32⟩
  | 125 => ⟨S850000, .i1⟩
  | 126 => ⟨S_, .i32⟩
  | 127 => ⟨S850000, .i32⟩
  | _ => ⟨S50000x512, .f32⟩

abbrev hbmTy0_1 (i : Nat) : BufTy := match i % 128 with
  | 0 => ⟨S850000, .i32⟩
  | 1 => ⟨S850000, .i32⟩
  | 2 => ⟨S850000x1, .i32⟩
  | 3 => ⟨S850000x256, .f32⟩
  | 4 => ⟨S850000x1, .f32⟩
  | 5 => ⟨S850000x256, .f32⟩
  | 6 => ⟨S850000x256, .f32⟩
  | 7 => ⟨S_, .f32⟩
  | 8 => ⟨S50000x256, .f32⟩
  | 9 => ⟨S850000x1, .i32⟩
  | 10 => ⟨S50000x256, .f32⟩
  | 11 => ⟨S1x256, .f32⟩
  | 12 => ⟨S50000x256, .f32⟩
  | 13 => ⟨S50000x256, .f32⟩
  | 14 => ⟨S_, .f32⟩
  | 15 => ⟨S50000x256, .f32⟩
  | 16 => ⟨S50000x256, .f32⟩
  | 17 => ⟨S_, .f32⟩
  | 18 => ⟨S50000x256, .f32⟩
  | 19 => ⟨S50000x256, .f32⟩
  | 20 => ⟨S1x256, .f32⟩
  | 21 => ⟨S50000x256, .f32⟩
  | 22 => ⟨S50000x256, .f32⟩
  | 23 => ⟨S50000x256, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_call1_v0 : Ref sig .tc := ⟨.hbm, 39, rfl⟩
abbrev main_call1_v1 : Ref sig .tc := ⟨.hbm, 40, rfl⟩
abbrev main_v19 : Ref sig .tc := ⟨.hbm, 41, rfl⟩
abbrev main_c : Ref sig .tc := ⟨.hbm, 42, rfl⟩
abbrev main_v20 : Ref sig .tc := ⟨.hbm, 43, rfl⟩
abbrev main_v21 : Ref sig .tc := ⟨.hbm, 44, rfl⟩
abbrev main_c_5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_6 : Ref sig .tc := ⟨.hbm, 52, rfl⟩
abbrev main_v28 : Ref sig .tc := ⟨.hbm, 53, rfl⟩
abbrev main_v29 : Ref sig .tc := ⟨.hbm, 54, rfl⟩
abbrev main_c_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_8 : Ref sig .tc := ⟨.hbm, 63, rfl⟩
abbrev main_v37 : Ref sig .tc := ⟨.hbm, 64, rfl⟩
abbrev main_v38 : Ref sig .tc := ⟨.hbm, 65, rfl⟩
abbrev main_c_9 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_10 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_c_11 : Ref sig .tc := ⟨.hbm, 83, rfl⟩
abbrev main_v54 : Ref sig .tc := ⟨.hbm, 84, rfl⟩
abbrev main_v55 : Ref sig .tc := ⟨.hbm, 85, rfl⟩
abbrev main_c_12 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_13 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_14 : Ref sig .tc := ⟨.hbm, 103, rfl⟩
abbrev main_v71 : Ref sig .tc := ⟨.hbm, 104, rfl⟩
abbrev main_v72 : Ref sig .tc := ⟨.hbm, 105, rfl⟩
abbrev main_c_15 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_16 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_c_17 : Ref sig .tc := ⟨.hbm, 123, rfl⟩
abbrev main_v88 : Ref sig .tc := ⟨.hbm, 124, rfl⟩
abbrev main_v89 : Ref sig .tc := ⟨.hbm, 125, rfl⟩
abbrev main_c_18 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_19 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_20 : Ref sig .tc := ⟨.hbm, 142, rfl⟩
abbrev main_v104 : Ref sig .tc := ⟨.hbm, 143, rfl⟩
abbrev main_v105 : Ref sig .tc := ⟨.hbm, 144, rfl⟩
abbrev main_cst_21 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x256_S50000x256_1_0_0_1_n_n_wf : DotDims.WF S50000x512 S512x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.WholeRun.lean ====
/-
  The whole run of the four-layer program, with every buffer read at the end.

  The program is thirteen segments: five stretches of host operations, then four times a tiled matrix product
  followed by a stretch of host operations. Each segment takes the buffers from the contents at its entry to the
  contents at its exit: a host stretch applies its operations in order; a matrix-product segment leaves in its
  output array what its grid points wrote back and touches nothing else. Folding these thirteen steps from the launch
  memory gives the final contents of every buffer. This module states that every weakly fair execution terminates in
  a memory that holds exactly that fold at every buffer that outlives the segments — the result buffer among them,
  which a statement about unchanged arguments does not mention.

  The proof is the segment-list run theorem applied to the program's thirteen segments: the program is the run of
  its segments; no pipeline is entered twice; at the launch each core holds its buffers at the launch memory, which
  is the first segment's entry state; each segment's exit state is the next one's entry state, word for word; and
  the last exit state, held beside a final machine state, says that the machine's memory agrees with the fold on
  every buffer the state holds.
-/
import proofs.«108065_j2310692405382_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a core holds when the first segment starts: its buffers at the launch memory, its generator register, and
    nothing owed. -/
abbrev firstState (c : Dev nD) : sProp 𝕄 :=
  iprop(StableHlo.held (c : Thread nD τ) (Pipeline.ucRefs τ sig) (W0 m ρ c) ∗ R c)

/-- What the final memory is known to hold on core `c`: the thirteen-step fold, at every buffer that outlives the
    segments. -/
abbrev holdsFold (c : Dev nD) (s : MemSt nD τ sig (Elt F)) : Prop :=
  ∀ b ∈ Pipeline.ucRefs τ sig, s.mem (((c : Thread nD τ)).1, b) = W13 m ρ c b

set_option backward.isDefEq.respectTransparency.types false in
/-- Every weakly fair execution terminates, and at the end every buffer that outlives the segments holds the
    thirteen-step fold of the launch memory. -/
theorem run_all : θ_run defs (onTc (τ := τ) (main (F := F))) ⟨m, fun _ => 0, ρ⟩ (fun r => ∀ c : Dev nD, holdsFold m ρ c r.2) :=
  Pipeline.θ_run_regions_kit (pcfgs (F := F)) adm (pdats m ρ) () cellOf_inj emb₁ defs₀ 𝒱₀ L lv m ρ main (segs m ρ)
    -- the program is the run of its segments
    (fun c Q => by rw [main_run m ρ c])
    -- the four pipelines are entered once each
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    -- the launch element is the pipelines' own; no core needs anything else
    (hu₀ := by
      iintro Hlaunch
      imodintro
      isplitl [Hlaunch]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hlaunch
      · iapply (show (BI.emp : sProp 𝕄) ⊢ bigSep Finset.univ (fun _ : Dev nD => (BI.emp : sProp 𝕄)) from by
          rw [BI.bigSep_emp_const])
        iempintro)
    (T₀ := firstState m ρ) (Tₙ := Tₙ m ρ)
    -- each segment's exit state is the next one's entry state; the last one regrouped
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        dsimp only [Pipeline.Seg.post, hseg, Pipeline.HostSeg.ofOps]
        iintro ⟨Hbufs, Hreg, Howed⟩
        isplitr [Howed]
        · isplitl [Hbufs]
          · iexact Hbufs
          · iexact Hreg
        · iexact Howed⟩)
    -- what the launch deals a core is its first state
    (hinit := by
      refine Pipeline.initEach L lv fun c => ?_
      rw [show unscopedBufs c (fun b => m ((c : Thread nD τ).loc b))
            = StableHlo.held (c : Thread nD τ) (Pipeline.ucRefs τ sig) (W0 m ρ c)
          from Pipeline.unscopedBufs_held c (W0 m ρ c)]
      iintro ⟨⟨Hbufs, -, Howed, -, Hreg, -⟩, -⟩
      imodintro
      isplitl [Hbufs]
      · iexact Hbufs
      isplitl [Hreg]
      · iexists _
        iexact Hreg
      · iexists ∅
        iexact Howed)
    (QY := holdsFold m ρ)
    -- the last state beside a final machine state: the memory agrees with the fold on every buffer held
    (hfin := fun c s' => by
      iintro ⟨⟨Hbufs, -⟩, Hstate⟩
      unfold StableHlo.held
      imodintro
      iapply (pointsTo_read_all (Pipeline.ucRefs τ sig) (fun b => (((c : Thread nD τ)).1, b)) (W13 m ρ c) s')
      isplitl [Hbufs] <;> iassumption)
    (hQ := fun s h => h)

/-- The result buffer outlives the segments. -/
theorem result_mem : Proc.devRef .tc main_v111 ∈ Pipeline.ucRefs τ sig := mem_uc main_v111 (by decide)

end Cert.KernelIdeal.WholeRun

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.LayerProduct.lean ====
/-
  One grid point's stored block, entry by entry, at the exact (extended-real) values.

  Each of the four layers' kernels loads a block of 5000 rows of its left operand and the whole right operand,
  rounds both to bf16 (the identity on exact values), multiplies them into a zero accumulator and stores the
  product. So the stored block's (p, q) entry is the sum over the contracted coordinate c of
  left(p, c) · right(c, q). For the three later layers the left block first passes through a shape cast between
  equal shapes, which changes nothing.
-/
import proofs.«108065_j2310692405382_1_alg».proof.Proof.Gen.KernelIdeal.Skeleton
import proofs.«108065_j2310692405382_1_alg».proof.Proof.LibPlainMatmul
import Idealize.ShloMosaic.Lib.Pipeline.Value

noncomputable section

open scoped BigOperators

namespace Cert.KernelIdeal.LayerProduct

open Idealize.ShloMosaic Idealize.ShloMosaic.ValueIdx Cert.KernelIdeal Cert.KernelIdeal.Gen

/-- Layer 1 (512 input channels): the stored block at (p, q) is the row-by-column sum. -/
theorem pay0_apply (x0 : Vec Ideal S5000x512 .f32) (x1 : Vec Ideal S512x256 .f32) (p : Fin 5000) (q : Fin 256) :
    k0_pay1 (F := Ideal) x0 x1 (ix2 p q) = ∑ c : Fin 512, x0 (ix2 p c) * x1 (ix2 c q) :=
  matmul_plain_zero_apply (m := 5000) (k := 512) (n := 256) (φ₁ := .bf16) (φ₂ := .bf16) none x0 x1 p q

/-- Layer 2 (256 input channels). -/
theorem pay1_apply (x0 : Vec Ideal S5000x256 .f32) (x1 : Vec Ideal S256x256 .f32) (p : Fin 5000) (q : Fin 256) :
    k1_pay1 (F := Ideal) x0 x1 (ix2 p q) = ∑ c : Fin 256, x0 (ix2 p c) * x1 (ix2 c q) := by
  unfold k1_pay1
  rw [shapeCast_self]
  exact matmul_plain_zero_apply (m := 5000) (k := 256) (n := 256) (φ₁ := .bf16) (φ₂ := .bf16) none x0 x1 p q

/-- Layer 3. -/
theorem pay2_apply (x0 : Vec Ideal S5000x256 .f32) (x1 : Vec Ideal S256x256 .f32) (p : Fin 5000) (q : Fin 256) :
    k2_pay1 (F := Ideal) x0 x1 (ix2 p q) = ∑ c : Fin 256, x0 (ix2 p c) * x1 (ix2 c q) := by
  unfold k2_pay1
  rw [shapeCast_self]
  exact matmul_plain_zero_apply (m := 5000) (k := 256) (n := 256) (φ₁ := .bf16) (φ₂ := .bf16) none x0 x1 p q

/-- Layer 4. -/
theorem pay3_apply (x0 : Vec Ideal S5000x256 .f32) (x1 : Vec Ideal S256x256 .f32) (p : Fin 5000) (q : Fin 256) :
    k3_pay1 (F := Ideal) x0 x1 (ix2 p q) = ∑ c : Fin 256, x0 (ix2 p c) * x1 (ix2 c q) := by
  unfold k3_pay1
  rw [shapeCast_self]
  exact matmul_plain_zero_apply (m := 5000) (k := 256) (n := 256) (φ₁ := .bf16) (φ₂ := .bf16) none x0 x1 p q

end Cert.KernelIdeal.LayerProduct

end
-- ==== Proof.LibPlainDot.lean ====
/-
  A plain matrix product computed as a host dot_general, read at an entry, at the exact (extended-real) values.

  For an m×k matrix A and a k×n matrix B the product's (a, b) entry is the sum over the contracted coordinate c of
  A(a, c) · B(c, b), whatever the schedule key: the contraction's index set has one axis, of extent k, and is
  re-indexed by its one coordinate. The twin, for the host's product, of the same reading of a matmul into a zero
  accumulator.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the host's plain product of an m×k by a k×n matrix is `∑ c, A (a, c) * B (c, b)` on the
    extended reals. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

/-- The same for the schedule key of one device's data, as a host program applies it. -/
theorem hostDotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  dotGeneral_plain_apply prec .single A B a b

end Idealize.ShloMosaic.ValueIdx

end
-- ==== Proof.Projection1.lean ====
/-
  The first layer's dense projection as a whole array.

  The grid has ten points; point t loads rows 5000·t … 5000·t + 4999 of the left operand (all 512 columns) and the
  whole right operand, and writes back rows 5000·t … 5000·t + 4999 of the output (all 256 columns). What it writes,
  entry by entry, is the row-by-column sum over the 512 contracted coordinates, which is exactly that block of the
  full product of the two arrays. The ten blocks tile the 50000 rows (row r belongs to point r / 5000), so after the
  last point the output array is the full product of the arrays the layer found at its entry.
-/
import proofs.«108065_j2310692405382_1_alg».proof.Proof.Gen.KernelIdeal.Frame
import proofs.«108065_j2310692405382_1_alg».proof.Proof.LayerProduct
import proofs.«108065_j2310692405382_1_alg».proof.Proof.LibPlainDot
import Idealize.ShloMosaic.Lib.Pipeline.Value

set_option maxRecDepth 16384

noncomputable section

open scoped BigOperators

namespace Cert.KernelIdeal.Projection1

open Cert.KernelIdeal Cert.KernelIdeal.Gen Cert.KernelIdeal.LayerProduct
open Idealize.ShloMosaic Idealize.ShloMosaic.TcCoe Idealize.ShloMosaic.ValueIdx Idealize.SL.Sem
open Idealize.ShloMosaic.Pipeline (Dat)

/-- The full product of a 50000×512 array by a 512×256 array, as the host computes it. -/
abbrev product (A : FVec Ideal S50000x512 .f32) (B : FVec Ideal S512x256 .f32) : FVec Ideal S50000x256 .f32 :=
  Host.dotGeneral (F := Ideal) (DotDims.plain 50000 512 256) none A B

theorem zero_offsets : (![0, 0] : Fin 2 → Nat) = fun _ => 0 := funext fun a => by fin_cases a <;> rfl

/-- One stored block against the full product: if the loaded left block is rows r … r + 4999 of A and the loaded right
    block is B, then the stored block's entry j is the product's entry at row r + j₀, column j₁. -/
theorem block_entry (x0 : Vec Ideal S5000x512 .f32) (x1 : Vec Ideal S512x256 .f32)
    (A : FVec Ideal S50000x512 .f32) (B : FVec Ideal S512x256 .f32) (j : S5000x256.Idx) (i : S50000x256.Idx) (r : Nat)
    (hi0 : (i 0).val = r + (j 0).val) (hi1 : (i 1).val = (j 1).val)
    (h0 : ∀ (p : Fin 5000) (c : Fin 512) (p' : Fin 50000), p'.val = r + p.val → x0 (ix2 p c) = A (ix2 p' c))
    (h1 : x1 = B) :
    k0_pay1 (F := Ideal) x0 x1 j = product A B i := by
  obtain ⟨p, q, rfl⟩ : ∃ (p : Fin 5000) (q : Fin 256), j = ix2 p q := ⟨j 0, j 1, eq_ix2 j⟩
  obtain ⟨p', q', rfl⟩ : ∃ (p' : Fin 50000) (q' : Fin 256), i = ix2 p' q' := ⟨i 0, i 1, eq_ix2 i⟩
  obtain rfl : q' = q := Fin.ext hi1
  subst h1
  rw [pay0_apply]
  refine Eq.trans ?_ (hostDotGeneral_plain_apply none A x1 p' q').symm
  exact Finset.sum_congr rfl fun c _ => by rw [h0 p c p' hi0]

/-- The index maps over the ten grid points: the left block and the output block are at row block t, everything
    else at block 0. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the full product of the arrays found at the layer's entry. -/
theorem written_block (c : Dev nD) (t : Fin cfg0.N) :
    (dat0 V c).flushed 2 t
      = ((cfg0.win 2).blk t).view.read (Elt Ideal) (product (V c main_arg0) (V c main_arg3)) := by
  show (cfg0.win 2).cut (grid0.coords t) ((dat0 V c).after 2 t) = _
  rw [after0_2]
  unfold out0_2
  rw [View.canon_unit_zero zero_offsets]
  simp only [View.ld_unit_zero (S := S5000x512) zero_offsets, View.ld_unit_zero (S := S512x256) zero_offsets]
  obtain ⟨e0, e1, e2, e3, e4, e5⟩ := index_facts t
  funext j
  refine block_entry (iblk0 V c 0 t) (iblk0 V c 1 t) (V c main_arg0) (V c main_arg3) j
    (((cfg0.win 2).blk t).view.emb j) (t.val * 5000) ?_ ?_ ?_ ?_
  · show win0_2.index t (0 : Fin 2) * 5000 + 1 * (j 0).val = t.val * 5000 + (j 0).val
    rw [e4]; omega
  · show win0_2.index t (1 : Fin 2) * 256 + 1 * (j 1).val = (j 1).val
    rw [e5]; omega
  · intro p cc p' hp
    show V c main_arg0 (((cfg0.win 0).blk t).view.emb (ix2 p cc)) = V c main_arg0 (ix2 p' cc)
    refine congrArg (V c main_arg0) (funext fun a => Fin.ext ?_)
    match a with
    | ⟨0, _⟩ => show win0_0.index t (0 : Fin 2) * 5000 + 1 * p.val = p'.val; rw [e0]; omega
    | ⟨1, _⟩ => show win0_0.index t (1 : Fin 2) * 512 + 1 * cc.val = cc.val; rw [e1]; omega
  · funext y
    show V c main_arg3 (((cfg0.win 1).blk t).view.emb y) = V c main_arg3 y
    refine congrArg (V c main_arg3) (funext fun a => Fin.ext ?_)
    match a with
    | ⟨0, _⟩ => show win0_1.index t (0 : Fin 2) * 512 + 1 * (y 0).val = (y 0).val; rw [e2]; omega
    | ⟨1, _⟩ => show win0_1.index t (1 : Fin 2) * 256 + 1 * (y 1).val = (y 1).val; rw [e3]; omega

/-- Every row of the output lies in the block of the point that is its row number divided by 5000. -/
theorem rows_covered (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 10 := N_0
  have inside : ∀ t : Fin cfg0.N, t.val = (i 0).val / 5000 → i ∈ ((cfg0.win 2).blk t).view.set := by
    intro t ht
    obtain ⟨e0, e1, e2, e3, e4, e5⟩ := index_facts t
    show i ∈ ((View.whole main_v36).slice (win0_2.rect t)).set
    rw [View.set_slice_whole, Rect.mem_set_unit]
    intro a
    match a with
    | ⟨0, _⟩ =>
      show win0_2.index t (0 : Fin 2) * 5000 ≤ (i 0).val ∧ (i 0).val < win0_2.index t (0 : Fin 2) * 5000 + 5000
      rw [e4, ht]; omega
    | ⟨1, _⟩ =>
      show win0_2.index t (1 : Fin 2) * 256 ≤ (i 1).val ∧ (i 1).val < win0_2.index t (1 : Fin 2) * 256 + 256
      rw [e5]; omega
  exact ⟨⟨(i 0).val / 5000, by rw [hN]; omega⟩, flush0_2 _, inside _ rfl⟩

/-- After the last point the output array is the full product of the arrays found at the layer's entry. -/
theorem output_array (c : Dev nD) :
    (dat0 V c).arrAt 2 cfg0.N = product (V c main_arg0) (V c main_arg3) :=
  (dat0 V c).arrAt_eq_of_cover 2 _ (fun t _ => written_block V c t) (rows_covered)

end Cert.KernelIdeal.Projection1

end
-- ==== Proof.Projection2.lean ====
/-
  The second layer's dense projection as a whole array.

  The grid has ten points; point t loads rows 5000·t … 5000·t + 4999 of the left operand (all 256 columns) and the
  whole right operand, and writes back rows 5000·t … 5000·t + 4999 of the output (all 256 columns). What it writes,
  entry by entry, is the row-by-column sum over the 256 contracted coordinates, which is exactly that block of the
  full product of the two arrays. The ten blocks tile the 50000 rows (row r belongs to point r / 5000), so after the
  last point the output array is the full product of the arrays the layer found at its entry.
-/
import proofs.«108065_j2310692405382_1_alg».proof.Proof.Gen.KernelIdeal.Frame
import proofs.«108065_j2310692405382_1_alg».proof.Proof.LayerProduct
import proofs.«108065_j2310692405382_1_alg».proof.Proof.LibPlainDot
import Idealize.ShloMosaic.Lib.Pipeline.Value

set_option maxRecDepth 16384

noncomputable section

open scoped BigOperators

namespace Cert.KernelIdeal.Projection2

open Cert.KernelIdeal Cert.KernelIdeal.Gen Cert.KernelIdeal.LayerProduct
open Idealize.ShloMosaic Idealize.ShloMosaic.TcCoe Idealize.ShloMosaic.ValueIdx Idealize.SL.Sem
open Idealize.ShloMosaic.Pipeline (Dat)

/-- The full product of a 50000×256 array by a 256×256 array, as the host computes it. -/
abbrev product (A : FVec Ideal S50000x256 .f32) (B : FVec Ideal S256x256 .f32) : FVec Ideal S50000x256 .f32 :=
  Host.dotGeneral (F := Ideal) (DotDims.plain 50000 256 256) none A B

theorem zero_offsets : (![0, 0] : Fin 2 → Nat) = fun _ => 0 := funext fun a => by fin_cases a <;> rfl

/-- One stored block against the full product: if the loaded left block is rows r … r + 4999 of A and the loaded right
    block is B, then the stored block's entry j is the product's entry at row r + j₀, column j₁. -/
theorem block_entry (x0 : Vec Ideal S5000x256 .f32) (x1 : Vec Ideal S256x256 .f32)
    (A : FVec Ideal S50000x256 .f32) (B : FVec Ideal S256x256 .f32) (j : S5000x256.Idx) (i : S50000x256.Idx) (r : Nat)
    (hi0 : (i 0).val = r + (j 0).val) (hi1 : (i 1).val = (j 1).val)
    (h0 : ∀ (p : Fin 5000) (c : Fin 256) (p' : Fin 50000), p'.val = r + p.val → x0 (ix2 p c) = A (ix2 p' c))
    (h1 : x1 = B) :
    k1_pay1 (F := Ideal) x0 x1 j = product A B i := by
  obtain ⟨p, q, rfl⟩ : ∃ (p : Fin 5000) (q : Fin 256), j = ix2 p q := ⟨j 0, j 1, eq_ix2 j⟩
  obtain ⟨p', q', rfl⟩ : ∃ (p' : Fin 50000) (q' : Fin 256), i = ix2 p' q' := ⟨i 0, i 1, eq_ix2 i⟩
  obtain rfl : q' = q := Fin.ext hi1
  subst h1
  rw [pay1_apply]
  refine Eq.trans ?_ (hostDotGeneral_plain_apply none A x1 p' q').symm
  exact Finset.sum_congr rfl fun c _ => by rw [h0 p c p' hi0]

/-- The index maps over the ten grid points: the left block and the output block are at row block t, everything
    else at block 0. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point t writes back is block t of the full product of the arrays found at the layer's entry. -/
theorem written_block (c : Dev nD) (t : Fin cfg1.N) :
    (dat1 V c).flushed 2 t
      = ((cfg1.win 2).blk t).view.read (Elt Ideal) (product (V c main_v52) (V c main_arg5)) := by
  show (cfg1.win 2).cut (grid1.coords t) ((dat1 V c).after 2 t) = _
  rw [after1_2]
  unfold out1_2
  rw [View.canon_unit_zero zero_offsets]
  simp only [View.ld_unit_zero (S := S5000x256) zero_offsets, View.ld_unit_zero (S := S256x256) zero_offsets]
  obtain ⟨e0, e1, e2, e3, e4, e5⟩ := index_facts t
  funext j
  refine block_entry (iblk1 V c 0 t) (iblk1 V c 1 t) (V c main_v52) (V c main_arg5) j
    (((cfg1.win 2).blk t).view.emb j) (t.val * 5000) ?_ ?_ ?_ ?_
  · show win1_2.index t (0 : Fin 2) * 5000 + 1 * (j 0).val = t.val * 5000 + (j 0).val
    rw [e4]; omega
  · show win1_2.index t (1 : Fin 2) * 256 + 1 * (j 1).val = (j 1).val
    rw [e5]; omega
  · intro p cc p' hp
    show V c main_v52 (((cfg1.win 0).blk t).view.emb (ix2 p cc)) = V c main_v52 (ix2 p' cc)
    refine congrArg (V c main_v52) (funext fun a => Fin.ext ?_)
    match a with
    | ⟨0, _⟩ => show win1_0.index t (0 : Fin 2) * 5000 + 1 * p.val = p'.val; rw [e0]; omega
    | ⟨1, _⟩ => show win1_0.index t (1 : Fin 2) * 256 + 1 * cc.val = cc.val; rw [e1]; omega
  · funext y
    show V c main_arg5 (((cfg1.win 1).blk t).view.emb y) = V c main_arg5 y
    refine congrArg (V c main_arg5) (funext fun a => Fin.ext ?_)
    match a with
    | ⟨0, _⟩ => show win1_1.index t (0 : Fin 2) * 256 + 1 * (y 0).val = (y 0).val; rw [e2]; omega
    | ⟨1, _⟩ => show win1_1.index t (1 : Fin 2) * 256 + 1 * (y 1).val = (y 1).val; rw [e3]; omega

/-- Every row of the output lies in the block of the point that is its row number divided by 5000. -/
theorem rows_covered (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have hN : cfg1.N = 10 := N_1
  have inside : ∀ t : Fin cfg1.N, t.val = (i 0).val / 5000 → i ∈ ((cfg1.win 2).blk t).view.set := by
    intro t ht
    obtain ⟨e0, e1, e2, e3, e4, e5⟩ := index_facts t
    show i ∈ ((View.whole main_v53).slice (win1_2.rect t)).set
    rw [View.set_slice_whole, Rect.mem_set_unit]
    intro a
    match a with
    | ⟨0, _⟩ =>
      show win1_2.index t (0 : Fin 2) * 5000 ≤ (i 0).val ∧ (i 0).val < win1_2.index t (0 : Fin 2) * 5000 + 5000
      rw [e4, ht]; omega
    | ⟨1, _⟩ =>
      show win1_2.index t (1 : Fin 2) * 256 ≤ (i 1).val ∧ (i 1).val < win1_2.index t (1 : Fin 2) * 256 + 256
      rw [e5]; omega
  exact ⟨⟨(i 0).val / 5000, by rw [hN]; omega⟩, flush1_2 _, inside _ rfl⟩

/-- After the last point the output array is the full product of the arrays found at the layer's entry. -/
theorem output_array (c : Dev nD) :
    (dat1 V c).arrAt 2 cfg1.N = product (V c main_v52) (V c main_arg5) :=
  (dat1 V c).arrAt_eq_of_cover 2 _ (fun t _ => written_block V c t) (rows_covered)

end Cert.KernelIdeal.Projection2

end
-- ==== Proof.Projection3.lean ====
/-
  The third layer's dense projection as a whole array.

  The grid has ten points; point t loads rows 5000·t … 5000·t + 4999 of the left operand (all 256 columns) and the
  whole right operand, and writes back rows 5000·t … 5000·t + 4999 of the output (all 256 columns). What it writes,
  entry by entry, is the row-by-column sum over the 256 contracted coordinates, which is exactly that block of the
  full product of the two arrays. The ten blocks tile the 50000 rows (row r belongs to point r / 5000), so after the
  last point the output array is the full product of the arrays the layer found at its entry.
-/
import proofs.«108065_j2310692405382_1_alg».proof.Proof.Gen.KernelIdeal.Frame
import proofs.«108065_j2310692405382_1_alg».proof.Proof.LayerProduct
import proofs.«108065_j2310692405382_1_alg».proof.Proof.LibPlainDot
import Idealize.ShloMosaic.Lib.Pipeline.Value

set_option maxRecDepth 16384

noncomputable section

open scoped BigOperators

namespace Cert.KernelIdeal.Projection3

open Cert.KernelIdeal Cert.KernelIdeal.Gen Cert.KernelIdeal.LayerProduct
open Idealize.ShloMosaic Idealize.ShloMosaic.TcCoe Idealize.ShloMosaic.ValueIdx Idealize.SL.Sem
open Idealize.ShloMosaic.Pipeline (Dat)

/-- The full product of a 50000×256 array by a 256×256 array, as the host computes it. -/
abbrev product (A : FVec Ideal S50000x256 .f32) (B : FVec Ideal S256x256 .f32) : FVec Ideal S50000x256 .f32 :=
  Host.dotGeneral (F := Ideal) (DotDims.plain 50000 256 256) none A B

theorem zero_offsets : (![0, 0] : Fin 2 → Nat) = fun _ => 0 := funext fun a => by fin_cases a <;> rfl

/-- One stored block against the full product: if the loaded left block is rows r … r + 4999 of A and the loaded right
    block is B, then the stored block's entry j is the product's entry at row r + j₀, column j₁. -/
theorem block_entry (x0 : Vec Ideal S5000x256 .f32) (x1 : Vec Ideal S256x256 .f32)
    (A : FVec Ideal S50000x256 .f32) (B : FVec Ideal S256x256 .f32) (j : S5000x256.Idx) (i : S50000x256.Idx) (r : Nat)
    (hi0 : (i 0).val = r + (j 0).val) (hi1 : (i 1).val = (j 1).val)
    (h0 : ∀ (p : Fin 5000) (c : Fin 256) (p' : Fin 50000), p'.val = r + p.val → x0 (ix2 p c) = A (ix2 p' c))
    (h1 : x1 = B) :
    k2_pay1 (F := Ideal) x0 x1 j = product A B i := by
  obtain ⟨p, q, rfl⟩ : ∃ (p : Fin 5000) (q : Fin 256), j = ix2 p q := ⟨j 0, j 1, eq_ix2 j⟩
  obtain ⟨p', q', rfl⟩ : ∃ (p' : Fin 50000) (q' : Fin 256), i = ix2 p' q' := ⟨i 0, i 1, eq_ix2 i⟩
  obtain rfl : q' = q := Fin.ext hi1
  subst h1
  rw [pay2_apply]
  refine Eq.trans ?_ (hostDotGeneral_plain_apply none A x1 p' q').symm
  exact Finset.sum_congr rfl fun c _ => by rw [h0 p c p' hi0]

/-- The index maps over the ten grid points: the left block and the output block are at row block t, everything
    else at block 0. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point t writes back is block t of the full product of the arrays found at the layer's entry. -/
theorem written_block (c : Dev nD) (t : Fin cfg2.N) :
    (dat2 V c).flushed 2 t
      = ((cfg2.win 2).blk t).view.read (Elt Ideal) (product (V c main_v69) (V c main_arg7)) := by
  show (cfg2.win 2).cut (grid2.coords t) ((dat2 V c).after 2 t) = _
  rw [after2_2]
  unfold out2_2
  rw [View.canon_unit_zero zero_offsets]
  simp only [View.ld_unit_zero (S := S5000x256) zero_offsets, View.ld_unit_zero (S := S256x256) zero_offsets]
  obtain ⟨e0, e1, e2, e3, e4, e5⟩ := index_facts t
  funext j
  refine block_entry (iblk2 V c 0 t) (iblk2 V c 1 t) (V c main_v69) (V c main_arg7) j
    (((cfg2.win 2).blk t).view.emb j) (t.val * 5000) ?_ ?_ ?_ ?_
  · show win2_2.index t (0 : Fin 2) * 5000 + 1 * (j 0).val = t.val * 5000 + (j 0).val
    rw [e4]; omega
  · show win2_2.index t (1 : Fin 2) * 256 + 1 * (j 1).val = (j 1).val
    rw [e5]; omega
  · intro p cc p' hp
    show V c main_v69 (((cfg2.win 0).blk t).view.emb (ix2 p cc)) = V c main_v69 (ix2 p' cc)
    refine congrArg (V c main_v69) (funext fun a => Fin.ext ?_)
    match a with
    | ⟨0, _⟩ => show win2_0.index t (0 : Fin 2) * 5000 + 1 * p.val = p'.val; rw [e0]; omega
    | ⟨1, _⟩ => show win2_0.index t (1 : Fin 2) * 256 + 1 * cc.val = cc.val; rw [e1]; omega
  · funext y
    show V c main_arg7 (((cfg2.win 1).blk t).view.emb y) = V c main_arg7 y
    refine congrArg (V c main_arg7) (funext fun a => Fin.ext ?_)
    match a with
    | ⟨0, _⟩ => show win2_1.index t (0 : Fin 2) * 256 + 1 * (y 0).val = (y 0).val; rw [e2]; omega
    | ⟨1, _⟩ => show win2_1.index t (1 : Fin 2) * 256 + 1 * (y 1).val = (y 1).val; rw [e3]; omega

/-- Every row of the output lies in the block of the point that is its row number divided by 5000. -/
theorem rows_covered (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  have hN : cfg2.N = 10 := N_2
  have inside : ∀ t : Fin cfg2.N, t.val = (i 0).val / 5000 → i ∈ ((cfg2.win 2).blk t).view.set := by
    intro t ht
    obtain ⟨e0, e1, e2, e3, e4, e5⟩ := index_facts t
    show i ∈ ((View.whole main_v70).slice (win2_2.rect t)).set
    rw [View.set_slice_whole, Rect.mem_set_unit]
    intro a
    match a with
    | ⟨0, _⟩ =>
      show win2_2.index t (0 : Fin 2) * 5000 ≤ (i 0).val ∧ (i 0).val < win2_2.index t (0 : Fin 2) * 5000 + 5000
      rw [e4, ht]; omega
    | ⟨1, _⟩ =>
      show win2_2.index t (1 : Fin 2) * 256 ≤ (i 1).val ∧ (i 1).val < win2_2.index t (1 : Fin 2) * 256 + 256
      rw [e5]; omega
  exact ⟨⟨(i 0).val / 5000, by rw [hN]; omega⟩, flush2_2 _, inside _ rfl⟩

/-- After the last point the output array is the full product of the arrays found at the layer's entry. -/
theorem output_array (c : Dev nD) :
    (dat2 V c).arrAt 2 cfg2.N = product (V c main_v69) (V c main_arg7) :=
  (dat2 V c).arrAt_eq_of_cover 2 _ (fun t _ => written_block V c t) (rows_covered)

end Cert.KernelIdeal.Projection3

end
-- ==== Proof.Projection4.lean ====
/-
  The fourth layer's dense projection as a whole array.

  The grid has ten points; point t loads rows 5000·t … 5000·t + 4999 of the left operand (all 256 columns) and the
  whole right operand, and writes back rows 5000·t … 5000·t + 4999 of the output (all 256 columns). What it writes,
  entry by entry, is the row-by-column sum over the 256 contracted coordinates, which is exactly that block of the
  full product of the two arrays. The ten blocks tile the 50000 rows (row r belongs to point r / 5000), so after the
  last point the output array is the full product of the arrays the layer found at its entry.
-/
import proofs.«108065_j2310692405382_1_alg».proof.Proof.Gen.KernelIdeal.Frame
import proofs.«108065_j2310692405382_1_alg».proof.Proof.LayerProduct
import proofs.«108065_j2310692405382_1_alg».proof.Proof.LibPlainDot
import Idealize.ShloMosaic.Lib.Pipeline.Value

set_option maxRecDepth 16384

noncomputable section

open scoped BigOperators

namespace Cert.KernelIdeal.Projection4

open Cert.KernelIdeal Cert.KernelIdeal.Gen Cert.KernelIdeal.LayerProduct
open Idealize.ShloMosaic Idealize.ShloMosaic.TcCoe Idealize.ShloMosaic.ValueIdx Idealize.SL.Sem
open Idealize.ShloMosaic.Pipeline (Dat)

/-- The full product of a 50000×256 array by a 256×256 array, as the host computes it. -/
abbrev product (A : FVec Ideal S50000x256 .f32) (B : FVec Ideal S256x256 .f32) : FVec Ideal S50000x256 .f32 :=
  Host.dotGeneral (F := Ideal) (DotDims.plain 50000 256 256) none A B

theorem zero_offsets : (![0, 0] : Fin 2 → Nat) = fun _ => 0 := funext fun a => by fin_cases a <;> rfl

/-- One stored block against the full product: if the loaded left block is rows r … r + 4999 of A and the loaded right
    block is B, then the stored block's entry j is the product's entry at row r + j₀, column j₁. -/
theorem block_entry (x0 : Vec Ideal S5000x256 .f32) (x1 : Vec Ideal S256x256 .f32)
    (A : FVec Ideal S50000x256 .f32) (B : FVec Ideal S256x256 .f32) (j : S5000x256.Idx) (i : S50000x256.Idx) (r : Nat)
    (hi0 : (i 0).val = r + (j 0).val) (hi1 : (i 1).val = (j 1).val)
    (h0 : ∀ (p : Fin 5000) (c : Fin 256) (p' : Fin 50000), p'.val = r + p.val → x0 (ix2 p c) = A (ix2 p' c))
    (h1 : x1 = B) :
    k3_pay1 (F := Ideal) x0 x1 j = product A B i := by
  obtain ⟨p, q, rfl⟩ : ∃ (p : Fin 5000) (q : Fin 256), j = ix2 p q := ⟨j 0, j 1, eq_ix2 j⟩
  obtain ⟨p', q', rfl⟩ : ∃ (p' : Fin 50000) (q' : Fin 256), i = ix2 p' q' := ⟨i 0, i 1, eq_ix2 i⟩
  obtain rfl : q' = q := Fin.ext hi1
  subst h1
  rw [pay3_apply]
  refine Eq.trans ?_ (hostDotGeneral_plain_apply none A x1 p' q').symm
  exact Finset.sum_congr rfl fun c _ => by rw [h0 p c p' hi0]

/-- The index maps over the ten grid points: the left block and the output block are at row block t, everything
    else at block 0. -/
theorem index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- What point t writes back is block t of the full product of the arrays found at the layer's entry. -/
theorem written_block (c : Dev nD) (t : Fin cfg3.N) :
    (dat3 V c).flushed 2 t
      = ((cfg3.win 2).blk t).view.read (Elt Ideal) (product (V c main_v86) (V c main_arg9)) := by
  show (cfg3.win 2).cut (grid3.coords t) ((dat3 V c).after 2 t) = _
  rw [after3_2]
  unfold out3_2
  rw [View.canon_unit_zero zero_offsets]
  simp only [View.ld_unit_zero (S := S5000x256) zero_offsets, View.ld_unit_zero (S := S256x256) zero_offsets]
  obtain ⟨e0, e1, e2, e3, e4, e5⟩ := index_facts t
  funext j
  refine block_entry (iblk3 V c 0 t) (iblk3 V c 1 t) (V c main_v86) (V c main_arg9) j
    (((cfg3.win 2).blk t).view.emb j) (t.val * 5000) ?_ ?_ ?_ ?_
  · show win3_2.index t (0 : Fin 2) * 5000 + 1 * (j 0).val = t.val * 5000 + (j 0).val
    rw [e4]; omega
  · show win3_2.index t (1 : Fin 2) * 256 + 1 * (j 1).val = (j 1).val
    rw [e5]; omega
  · intro p cc p' hp
    show V c main_v86 (((cfg3.win 0).blk t).view.emb (ix2 p cc)) = V c main_v86 (ix2 p' cc)
    refine congrArg (V c main_v86) (funext fun a => Fin.ext ?_)
    match a with
    | ⟨0, _⟩ => show win3_0.index t (0 : Fin 2) * 5000 + 1 * p.val = p'.val; rw [e0]; omega
    | ⟨1, _⟩ => show win3_0.index t (1 : Fin 2) * 256 + 1 * cc.val = cc.val; rw [e1]; omega
  · funext y
    show V c main_arg9 (((cfg3.win 1).blk t).view.emb y) = V c main_arg9 y
    refine congrArg (V c main_arg9) (funext fun a => Fin.ext ?_)
    match a with
    | ⟨0, _⟩ => show win3_1.index t (0 : Fin 2) * 256 + 1 * (y 0).val = (y 0).val; rw [e2]; omega
    | ⟨1, _⟩ => show win3_1.index t (1 : Fin 2) * 256 + 1 * (y 1).val = (y 1).val; rw [e3]; omega

/-- Every row of the output lies in the block of the point that is its row number divided by 5000. -/
theorem rows_covered (i : S50000x256.Idx) :
    ∃ t : Fin cfg3.N, (cfg3.win 2).flush t = true ∧ i ∈ ((cfg3.win 2).blk t).view.set := by
  have hi0 : (i 0).val < 50000 := (i 0).isLt
  have hi1 : (i 1).val < 256 := (i 1).isLt
  have hN : cfg3.N = 10 := N_3
  have inside : ∀ t : Fin cfg3.N, t.val = (i 0).val / 5000 → i ∈ ((cfg3.win 2).blk t).view.set := by
    intro t ht
    obtain ⟨e0, e1, e2, e3, e4, e5⟩ := index_facts t
    show i ∈ ((View.whole main_v87).slice (win3_2.rect t)).set
    rw [View.set_slice_whole, Rect.mem_set_unit]
    intro a
    match a with
    | ⟨0, _⟩ =>
      show win3_2.index t (0 : Fin 2) * 5000 ≤ (i 0).val ∧ (i 0).val < win3_2.index t (0 : Fin 2) * 5000 + 5000
      rw [e4, ht]; omega
    | ⟨1, _⟩ =>
      show win3_2.index t (1 : Fin 2) * 256 ≤ (i 1).val ∧ (i 1).val < win3_2.index t (1 : Fin 2) * 256 + 256
      rw [e5]; omega
  exact ⟨⟨(i 0).val / 5000, by rw [hN]; omega⟩, flush3_2 _, inside _ rfl⟩

/-- After the last point the output array is the full product of the arrays found at the layer's entry. -/
theorem output_array (c : Dev nD) :
    (dat3 V c).arrAt 2 cfg3.N = product (V c main_v86) (V c main_arg9) :=
  (dat3 V c).arrAt_eq_of_cover 2 _ (fun t _ => written_block V c t) (rows_covered)

end Cert.KernelIdeal.Projection4

end
-- ==== Proof.Stages.lean ====
/-
  The buffers of the four-layer program, stage by stage, as functions of its twelve arguments.

  Before the first layer the host computes, from the edge list and the edge weights, the source and destination
  index of each of the 850000 edges (the given ones followed by one self-loop per node) and each edge's
  normalisation weight. Each layer then projects the current features by a dense product (the tiled kernel),
  gathers the projected rows at the edges' sources, scales them by the edge weights, adds them up at the edges'
  destinations and adds the bias; after the fourth layer comes the per-channel leaky rectifier. The host
  operations are the same in the reference program, which computes the dense products with a host product instead
  of the tiled kernel; since the kernel's output array IS the host product of the arrays it found (the projection
  modules), every buffer that later stages read holds the value the reference's stage holds, and so does the
  result.

  The buffers read again by later stages — the two index vectors, the edge weights, the weight matrices, biases and
  slopes — are written once (or never) and only read afterwards, so their contents at a later boundary are their
  contents at the earlier one: a host operation changes only its own result buffer, a layer's kernel only its
  output array.
-/
import proofs.«108065_j2310692405382_1_alg».proof.Proof.Gen.KernelIdeal.Frame
import proofs.«108065_j2310692405382_1_alg».proof.Proof.Gen.ReferenceIdeal.Read
import proofs.«108065_j2310692405382_1_alg».proof.Proof.Projection1
import proofs.«108065_j2310692405382_1_alg».proof.Proof.Projection2
import proofs.«108065_j2310692405382_1_alg».proof.Proof.Projection3
import proofs.«108065_j2310692405382_1_alg».proof.Proof.Projection4
import Idealize.ShloMosaic.Lib.StableHlo.Run

set_option maxRecDepth 16384

noncomputable section

namespace Cert.KernelIdeal.Stages

open Cert.KernelIdeal Cert.KernelIdeal.Gen
open Cert.ReferenceIdeal.Read
open Idealize.ShloMosaic Idealize.ShloMosaic.TcCoe Idealize.SL.Sem

/-! ## Two pieces joined along an axis

The join of two pieces carries a proof that the pieces' shapes fit the result, stated over the list of pieces; with the
pieces as plain arguments beside fixed shapes, a piece can be rewritten without touching that proof. -/

/-- Two pieces joined along an axis, the pieces as plain arguments. -/
def join2 {α : Type} (t : Shape) (a : Fin t.rank) (s₁ s₂ : Shape) (h : Shape.Concatenates [s₁, s₂] t a)
    (u : s₁.Idx → α) (v : s₂.Idx → α) : t.Idx → α :=
  concatenate t a [⟨s₁, u⟩, ⟨s₂, v⟩] h

theorem join2_eq {α : Type} (t : Shape) (a : Fin t.rank) (s₁ s₂ : Shape) (h : Shape.Concatenates [s₁, s₂] t a)
    (u : s₁.Idx → α) (v : s₂.Idx → α) :
    concatenate t a [⟨s₁, u⟩, ⟨s₂, v⟩] h = join2 t a s₁ s₂ h u v := rfl

/-! ## The selections' buffers hold values of the types they are read at

The two selections (keep the degree where it is positive, else one; keep its inverse square root where the degree
is positive, else zero) are written as calls whose operands and results pass between a buffer's own type and the
type the call states for it. The two types are the same, so the passage is the identity. -/

theorem to_cst_3 (h1 h2 h3) (v : (⟨S_, .f32⟩ : BufTy).Contents (Elt Ideal)) :
    (StableHlo.TRef.of (sig := sig) (T := ⟨S_, .f32⟩) main_cst_3 h1 h2 h3).toBuf v = v := rfl
theorem of_cst_3 (h1 h2 h3) (v : (⟨S_, .f32⟩ : BufTy).Contents (Elt Ideal)) :
    (StableHlo.TRef.of (sig := sig) (T := ⟨S_, .f32⟩) main_cst_3 h1 h2 h3).ofBuf v = v := rfl
theorem to_call0_v0 (h1 h2 h3) (v : (⟨S_, .f32⟩ : BufTy).Contents (Elt Ideal)) :
    (StableHlo.TRef.of (sig := sig) (T := ⟨S_, .f32⟩) main_call0_v0 h1 h2 h3).toBuf v = v := rfl
theorem of_call0_v0 (h1 h2 h3) (v : (⟨S_, .f32⟩ : BufTy).Contents (Elt Ideal)) :
    (StableHlo.TRef.of (sig := sig) (T := ⟨S_, .f32⟩) main_call0_v0 h1 h2 h3).ofBuf v = v := rfl
theorem to_call0_v1 (h1 h2 h3) (v : (⟨S50000, .f32⟩ : BufTy).Contents (Elt Ideal)) :
    (StableHlo.TRef.of (sig := sig) (T := ⟨S50000, .f32⟩) main_call0_v1 h1 h2 h3).toBuf v = v := rfl
theorem of_call0_v1 (h1 h2 h3) (v : (⟨S50000, .f32⟩ : BufTy).Contents (Elt Ideal)) :
    (StableHlo.TRef.of (sig := sig) (T := ⟨S50000, .f32⟩) main_call0_v1 h1 h2 h3).ofBuf v = v := rfl
theorem to_v16 (h1 h2 h3) (v : (⟨S50000, .i1⟩ : BufTy).Contents (Elt Ideal)) :
    (StableHlo.TRef.of (sig := sig) (T := ⟨S50000, .i1⟩) main_v16 h1 h2 h3).toBuf v = v := rfl
theorem of_v16 (h1 h2 h3) (v : (⟨S50000, .i1⟩ : BufTy).Contents (Elt Ideal)) :
    (StableHlo.TRef.of (sig := sig) (T := ⟨S50000, .i1⟩) main_v16 h1 h2 h3).ofBuf v = v := rfl
theorem to_v12 (h1 h2 h3) (v : (⟨S50000, .f32⟩ : BufTy).Contents (Elt Ideal)) :
    (StableHlo.TRef.of (sig := sig) (T := ⟨S50000, .f32⟩) main_v12 h1 h2 h3).toBuf v = v := rfl
theorem of_v12 (h1 h2 h3) (v : (⟨S50000, .f32⟩ : BufTy).Contents (Elt Ideal)) :
    (StableHlo.TRef.of (sig := sig) (T := ⟨S50000, .f32⟩) main_v12 h1 h2 h3).ofBuf v = v := rfl
theorem to_v17 (h1 h2 h3) (v : (⟨S50000, .f32⟩ : BufTy).Contents (Elt Ideal)) :
    (StableHlo.TRef.of (sig := sig) (T := ⟨S50000, .f32⟩) main_v17 h1 h2 h3).toBuf v = v := rfl
theorem of_v17 (h1 h2 h3) (v : (⟨S50000, .f32⟩ : BufTy).Contents (Elt Ideal)) :
    (StableHlo.TRef.of (sig := sig) (T := ⟨S50000, .f32⟩) main_v17 h1 h2 h3).ofBuf v = v := rfl
theorem to_cst_4 (h1 h2 h3) (v : (⟨S_, .f32⟩ : BufTy).Contents (Elt Ideal)) :
    (StableHlo.TRef.of (sig := sig) (T := ⟨S_, .f32⟩) main_cst_4 h1 h2 h3).toBuf v = v := rfl
theorem of_cst_4 (h1 h2 h3) (v : (⟨S_, .f32⟩ : BufTy).Contents (Elt Ideal)) :
    (StableHlo.TRef.of (sig := sig) (T := ⟨S_, .f32⟩) main_cst_4 h1 h2 h3).ofBuf v = v := rfl
theorem to_call1_v0 (h1 h2 h3) (v : (⟨S_, .f32⟩ : BufTy).Contents (Elt Ideal)) :
    (StableHlo.TRef.of (sig := sig) (T := ⟨S_, .f32⟩) main_call1_v0 h1 h2 h3).toBuf v = v := rfl
theorem of_call1_v0 (h1 h2 h3) (v : (⟨S_, .f32⟩ : BufTy).Contents (Elt Ideal)) :
    (StableHlo.TRef.of (sig := sig) (T := ⟨S_, .f32⟩) main_call1_v0 h1 h2 h3).ofBuf v = v := rfl
theorem to_call1_v1 (h1 h2 h3) (v : (⟨S50000, .f32⟩ : BufTy).Contents (Elt Ideal)) :
    (StableHlo.TRef.of (sig := sig) (T := ⟨S50000, .f32⟩) main_call1_v1 h1 h2 h3).toBuf v = v := rfl
theorem of_call1_v1 (h1 h2 h3) (v : (⟨S50000, .f32⟩ : BufTy).Contents (Elt Ideal)) :
    (StableHlo.TRef.of (sig := sig) (T := ⟨S50000, .f32⟩) main_call1_v1 h1 h2 h3).ofBuf v = v := rfl
theorem to_v14 (h1 h2 h3) (v : (⟨S50000, .i1⟩ : BufTy).Contents (Elt Ideal)) :
    (StableHlo.TRef.of (sig := sig) (T := ⟨S50000, .i1⟩) main_v14 h1 h2 h3).toBuf v = v := rfl
theorem of_v14 (h1 h2 h3) (v : (⟨S50000, .i1⟩ : BufTy).Contents (Elt Ideal)) :
    (StableHlo.TRef.of (sig := sig) (T := ⟨S50000, .i1⟩) main_v14 h1 h2 h3).ofBuf v = v := rfl
theorem to_v18 (h1 h2 h3) (v : (⟨S50000, .f32⟩ : BufTy).Contents (Elt Ideal)) :
    (StableHlo.TRef.of (sig := sig) (T := ⟨S50000, .f32⟩) main_v18 h1 h2 h3).toBuf v = v := rfl
theorem of_v18 (h1 h2 h3) (v : (⟨S50000, .f32⟩ : BufTy).Contents (Elt Ideal)) :
    (StableHlo.TRef.of (sig := sig) (T := ⟨S50000, .f32⟩) main_v18 h1 h2 h3).ofBuf v = v := rfl
theorem to_v19 (h1 h2 h3) (v : (⟨S50000, .f32⟩ : BufTy).Contents (Elt Ideal)) :
    (StableHlo.TRef.of (sig := sig) (T := ⟨S50000, .f32⟩) main_v19 h1 h2 h3).toBuf v = v := rfl
theorem of_v19 (h1 h2 h3) (v : (⟨S50000, .f32⟩ : BufTy).Contents (Elt Ideal)) :
    (StableHlo.TRef.of (sig := sig) (T := ⟨S50000, .f32⟩) main_v19 h1 h2 h3).ofBuf v = v := rfl

variable (m : (ℓ : Loc nD τ sig) → Buf (Elt Ideal) ℓ) (ρ : Dev nD → PrngReg) (c : Dev nD)

/-! ## A layer's kernel changes only its output array -/

theorem keep6 (b : Ref sig .tc) (hb : ∀ w, Pipeline.arrRef spec0 w ≠ b) :
    W6 m ρ c (no_index (Proc.devRef .tc b)) = W5 m ρ c (Proc.devRef .tc b) := W6_of_ne m ρ c b hb
theorem keep8 (b : Ref sig .tc) (hb : ∀ w, Pipeline.arrRef spec1 w ≠ b) :
    W8 m ρ c (no_index (Proc.devRef .tc b)) = W7 m ρ c (Proc.devRef .tc b) := W8_of_ne m ρ c b hb
theorem keep10 (b : Ref sig .tc) (hb : ∀ w, Pipeline.arrRef spec2 w ≠ b) :
    W10 m ρ c (no_index (Proc.devRef .tc b)) = W9 m ρ c (Proc.devRef .tc b) := W10_of_ne m ρ c b hb
theorem keep12 (b : Ref sig .tc) (hb : ∀ w, Pipeline.arrRef spec3 w ≠ b) :
    W12 m ρ c (no_index (Proc.devRef .tc b)) = W11 m ρ c (Proc.devRef .tc b) := W12_of_ne m ρ c b hb

/-- Walks a buffer's contents back through the host operations (each changes only its own result) and the layers'
    kernels (each changes only its output array) to the operations that wrote it. -/
macro "fold_back" : tactic =>
  `(tactic| simp (disch := decide) only [keep6, keep8, keep10, keep12, join2_eq,
      to_cst_3, of_cst_3, to_call0_v0, of_call0_v0, to_call0_v1, of_call0_v1, to_v16, of_v16, to_v12, of_v12, to_v17, of_v17, to_cst_4, of_cst_4, to_call1_v0, of_call1_v0, to_call1_v1, of_call1_v1, to_v14, of_v14, to_v18, of_v18, to_v19, of_v19,
      StableHlo.after_cons, StableHlo.after_nil,
      StableHlo.nullary_result', StableHlo.unary_result', StableHlo.binary_result', StableHlo.ternary_result',
      StableHlo.quaternary_result', StableHlo.reshape_result',
      StableHlo.nullary_result_ne', StableHlo.unary_result_ne', StableHlo.binary_result_ne', StableHlo.ternary_result_ne',
      StableHlo.quaternary_result_ne', StableHlo.reshape_result_ne'])

/-! ## Before the first layer: the arguments, the edges' indices and weights -/

theorem arg0_at5 : W5 m ρ c (Proc.devRef .tc main_arg0) = (m ((c : Thread nD τ).loc main_arg0)) := by fold_back
theorem arg3_at5 : W5 m ρ c (Proc.devRef .tc main_arg3) = (m ((c : Thread nD τ).loc main_arg3)) := by fold_back

/-! ## Layer 1 -/

theorem v36_at6 : W6 m ρ c (Proc.devRef .tc main_v36) = val_main_v36 (F := Ideal) (m ((c : Thread nD τ).loc main_arg0)) (m ((c : Thread nD τ).loc main_arg3)) := by
  refine (W6_arr m ρ c 2).trans ?_
  rw [Projection1.output_array (V5 m ρ) c]
  show Projection1.product (W5 m ρ c (Proc.devRef .tc main_arg0)) (W5 m ρ c (Proc.devRef .tc main_arg3)) = _
  rw [arg0_at5 m ρ c, arg3_at5 m ρ c]
  rfl
theorem v3_at6 : W6 m ρ c (Proc.devRef .tc main_v3) = val_main_v3 (F := Ideal) (m ((c : Thread nD τ).loc main_arg1)) := by fold_back; rfl
theorem v7_at6 : W6 m ρ c (Proc.devRef .tc main_v7) = val_main_v7 (F := Ideal) (m ((c : Thread nD τ).loc main_arg1)) := by fold_back; rfl
theorem v35_at6 : W6 m ρ c (Proc.devRef .tc main_v35) = val_main_v35 (F := Ideal) (m ((c : Thread nD τ).loc main_arg1)) (m ((c : Thread nD τ).loc main_arg2)) := by fold_back; rfl
theorem arg4_at6 : W6 m ρ c (Proc.devRef .tc main_arg4) = (m ((c : Thread nD τ).loc main_arg4)) := by fold_back
theorem v52_at7 : W7 m ρ c (Proc.devRef .tc main_v52) = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W6 m ρ c) (Proc.devRef .tc main_v52) = _
  after_results_simp
  rw [v36_at6 m ρ c, v3_at6 m ρ c, v7_at6 m ρ c, v35_at6 m ρ c, arg4_at6 m ρ c]
  rfl
theorem arg5_at7 : W7 m ρ c (Proc.devRef .tc main_arg5) = (m ((c : Thread nD τ).loc main_arg5)) := by fold_back

/-! ## Layer 2 -/

theorem v53_at8 : W8 m ρ c (Proc.devRef .tc main_v53) = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 2).trans ?_
  rw [Projection2.output_array (V7 m ρ) c]
  show Projection2.product (W7 m ρ c (Proc.devRef .tc main_v52)) (W7 m ρ c (Proc.devRef .tc main_arg5)) = _
  rw [v52_at7 m ρ c, arg5_at7 m ρ c]
  rfl
theorem v3_at8 : W8 m ρ c (Proc.devRef .tc main_v3) = val_main_v3 (F := Ideal) (m ((c : Thread nD τ).loc main_arg1)) := by fold_back; rfl
theorem v7_at8 : W8 m ρ c (Proc.devRef .tc main_v7) = val_main_v7 (F := Ideal) (m ((c : Thread nD τ).loc main_arg1)) := by fold_back; rfl
theorem v35_at8 : W8 m ρ c (Proc.devRef .tc main_v35) = val_main_v35 (F := Ideal) (m ((c : Thread nD τ).loc main_arg1)) (m ((c : Thread nD τ).loc main_arg2)) := by fold_back; rfl
theorem arg6_at8 : W8 m ρ c (Proc.devRef .tc main_arg6) = (m ((c : Thread nD τ).loc main_arg6)) := by fold_back
theorem v69_at9 : W9 m ρ c (Proc.devRef .tc main_v69) = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps2 (W8 m ρ c) (Proc.devRef .tc main_v69) = _
  after_results_simp
  rw [v53_at8 m ρ c, v3_at8 m ρ c, v7_at8 m ρ c, v35_at8 m ρ c, arg6_at8 m ρ c]
  rfl
theorem arg7_at9 : W9 m ρ c (Proc.devRef .tc main_arg7) = (m ((c : Thread nD τ).loc main_arg7)) := by fold_back

/-! ## Layer 3 -/

theorem v70_at10 : W10 m ρ c (Proc.devRef .tc main_v70) = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 2).trans ?_
  rw [Projection3.output_array (V9 m ρ) c]
  show Projection3.product (W9 m ρ c (Proc.devRef .tc main_v69)) (W9 m ρ c (Proc.devRef .tc main_arg7)) = _
  rw [v69_at9 m ρ c, arg7_at9 m ρ c]
  rfl
theorem v3_at10 : W10 m ρ c (Proc.devRef .tc main_v3) = val_main_v3 (F := Ideal) (m ((c : Thread nD τ).loc main_arg1)) := by fold_back; rfl
theorem v7_at10 : W10 m ρ c (Proc.devRef .tc main_v7) = val_main_v7 (F := Ideal) (m ((c : Thread nD τ).loc main_arg1)) := by fold_back; rfl
theorem v35_at10 : W10 m ρ c (Proc.devRef .tc main_v35) = val_main_v35 (F := Ideal) (m ((c : Thread nD τ).loc main_arg1)) (m ((c : Thread nD τ).loc main_arg2)) := by fold_back; rfl
theorem arg8_at10 : W10 m ρ c (Proc.devRef .tc main_arg8) = (m ((c : Thread nD τ).loc main_arg8)) := by fold_back
theorem v86_at11 : W11 m ρ c (Proc.devRef .tc main_v86) = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps3 (W10 m ρ c) (Proc.devRef .tc main_v86) = _
  after_results_simp
  rw [v70_at10 m ρ c, v3_at10 m ρ c, v7_at10 m ρ c, v35_at10 m ρ c, arg8_at10 m ρ c]
  rfl
theorem arg9_at11 : W11 m ρ c (Proc.devRef .tc main_arg9) = (m ((c : Thread nD τ).loc main_arg9)) := by fold_back

/-! ## Layer 4 and the rectifier -/

theorem v87_at12 : W12 m ρ c (Proc.devRef .tc main_v87) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W12_arr m ρ c 2).trans ?_
  rw [Projection4.output_array (V11 m ρ) c]
  show Projection4.product (W11 m ρ c (Proc.devRef .tc main_v86)) (W11 m ρ c (Proc.devRef .tc main_arg9)) = _
  rw [v86_at11 m ρ c, arg9_at11 m ρ c]
  rfl
theorem v3_at12 : W12 m ρ c (Proc.devRef .tc main_v3) = val_main_v3 (F := Ideal) (m ((c : Thread nD τ).loc main_arg1)) := by fold_back; rfl
theorem v7_at12 : W12 m ρ c (Proc.devRef .tc main_v7) = val_main_v7 (F := Ideal) (m ((c : Thread nD τ).loc main_arg1)) := by fold_back; rfl
theorem v35_at12 : W12 m ρ c (Proc.devRef .tc main_v35) = val_main_v35 (F := Ideal) (m ((c : Thread nD τ).loc main_arg1)) (m ((c : Thread nD τ).loc main_arg2)) := by fold_back; rfl
theorem arg10_at12 : W12 m ρ c (Proc.devRef .tc main_arg10) = (m ((c : Thread nD τ).loc main_arg10)) := by fold_back
theorem arg11_at12 : W12 m ρ c (Proc.devRef .tc main_arg11) = (m ((c : Thread nD τ).loc main_arg11)) := by fold_back
theorem v111_at13 : W13 m ρ c (Proc.devRef .tc main_v111) = val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps4 (W12 m ρ c) (Proc.devRef .tc main_v111) = _
  after_results_simp
  rw [v87_at12 m ρ c, v3_at12 m ρ c, v7_at12 m ρ c, v35_at12 m ρ c, arg10_at12 m ρ c, arg11_at12 m ρ c]
  rfl

end Cert.KernelIdeal.Stages

end
-- ==== Proof.lean ====
/-
  A four-layer graph convolution — each layer a dense projection, a gather along the edges, a scaling by the edges'
  normalisation weights, a scatter-add at the edges' destinations and a bias, with a per-channel leaky rectifier at
  the end — computed two ways: with the four dense projections as tiled matrix-product kernels (bf16 operands, f32
  accumulation, ten row blocks of 5000), and with host matrix products. Everything outside the projections is the
  same sequence of host operations in both programs.

  On exact values (the extended reals) rounding to bf16 is the identity, and a row block of a product into a zero
  accumulator is the corresponding rows of the whole product. So each kernel's output array equals the host product
  of the arrays it reads (modules Projection1 … Projection4), every later buffer of the kernel program holds what the
  reference's corresponding stage holds (module Stages, over the program's whole run read buffer by buffer, module
  WholeRun), and the two results are one function of the twelve arguments. No algebraic law is needed beyond the
  definition of a matrix product as a sum over the contracted coordinate, so the finiteness of the inputs is not used.

  The three frame statements are the programs' own runs; the idealization rewrote no operation, so there is nothing to
  preserve.
-/
import proofs.«108065_j2310692405382_1_alg».proof.Defs
import proofs.«108065_j2310692405382_1_alg».proof.Proof.Gen.Kernel
import proofs.«108065_j2310692405382_1_alg».proof.Proof.Gen.Kernel.Skeleton
import proofs.«108065_j2310692405382_1_alg».proof.Proof.Gen.Kernel.Launch
import proofs.«108065_j2310692405382_1_alg».proof.Proof.Gen.Kernel.Points
import proofs.«108065_j2310692405382_1_alg».proof.Proof.Gen.Kernel.Frame
import proofs.«108065_j2310692405382_1_alg».proof.Proof.Gen.KernelIdeal
import proofs.«108065_j2310692405382_1_alg».proof.Proof.Gen.KernelIdeal.Skeleton
import proofs.«108065_j2310692405382_1_alg».proof.Proof.Gen.KernelIdeal.Launch
import proofs.«108065_j2310692405382_1_alg».proof.Proof.Gen.KernelIdeal.Points
import proofs.«108065_j2310692405382_1_alg».proof.Proof.Gen.KernelIdeal.Frame
import proofs.«108065_j2310692405382_1_alg».proof.Proof.Gen.ReferenceIdeal
import proofs.«108065_j2310692405382_1_alg».proof.Proof.Gen.ReferenceIdeal.Run
import proofs.«108065_j2310692405382_1_alg».proof.Proof.Gen.ReferenceIdeal.Read
import proofs.«108065_j2310692405382_1_alg».proof.Proof.Gen.Pre_finite_inputs
import proofs.«108065_j2310692405382_1_alg».proof.Proof.WholeRun
import proofs.«108065_j2310692405382_1_alg».proof.Proof.Stages
import Idealize.ShloMosaic.Adequacy
import Idealize.ShloMosaic.Init

noncomputable section

namespace Cert.Proof

open Idealize.ShloMosaic Idealize.ShloMosaic.TcCoe Idealize.SL.Sem

/-- The kernel program as printed runs to the end and leaves its arguments as launched. -/
theorem frame_kernel : Cert.frame_Kernel := fun m ρ _ => Cert.Kernel.Gen.frame m ρ

/-- So does the kernel program read on exact values. -/
theorem frame_kernel_ideal : Cert.frame_KernelIdeal := fun m ρ _ => Cert.KernelIdeal.Gen.frame m ρ

/-- So does the reference: its run, with the statement about the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The kernel program's run, read at the result buffer and the arguments: the result is the reference's last stage
    of the twelve arguments. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v111)
        = Cert.ReferenceIdeal.Read.val_main_v111 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)) :=
  (θ_run Cert.KernelIdeal.defs _ _).mono (fun r h c =>
    ⟨(h c _ Cert.KernelIdeal.WholeRun.result_mem).trans (Cert.KernelIdeal.Stages.v111_at13 m ρ c),
     (h c _ (Cert.KernelIdeal.Gen.mem_uc Cert.KernelIdeal.main_arg0 (by decide))).trans (Cert.KernelIdeal.Gen.W13_main_arg0 m ρ c),
     (h c _ (Cert.KernelIdeal.Gen.mem_uc Cert.KernelIdeal.main_arg1 (by decide))).trans (Cert.KernelIdeal.Gen.W13_main_arg1 m ρ c),
     (h c _ (Cert.KernelIdeal.Gen.mem_uc Cert.KernelIdeal.main_arg2 (by decide))).trans (Cert.KernelIdeal.Gen.W13_main_arg2 m ρ c),
     (h c _ (Cert.KernelIdeal.Gen.mem_uc Cert.KernelIdeal.main_arg3 (by decide))).trans (Cert.KernelIdeal.Gen.W13_main_arg3 m ρ c),
     (h c _ (Cert.KernelIdeal.Gen.mem_uc Cert.KernelIdeal.main_arg4 (by decide))).trans (Cert.KernelIdeal.Gen.W13_main_arg4 m ρ c),
     (h c _ (Cert.KernelIdeal.Gen.mem_uc Cert.KernelIdeal.main_arg5 (by decide))).trans (Cert.KernelIdeal.Gen.W13_main_arg5 m ρ c),
     (h c _ (Cert.KernelIdeal.Gen.mem_uc Cert.KernelIdeal.main_arg6 (by decide))).trans (Cert.KernelIdeal.Gen.W13_main_arg6 m ρ c),
     (h c _ (Cert.KernelIdeal.Gen.mem_uc Cert.KernelIdeal.main_arg7 (by decide))).trans (Cert.KernelIdeal.Gen.W13_main_arg7 m ρ c),
     (h c _ (Cert.KernelIdeal.Gen.mem_uc Cert.KernelIdeal.main_arg8 (by decide))).trans (Cert.KernelIdeal.Gen.W13_main_arg8 m ρ c),
     (h c _ (Cert.KernelIdeal.Gen.mem_uc Cert.KernelIdeal.main_arg9 (by decide))).trans (Cert.KernelIdeal.Gen.W13_main_arg9 m ρ c),
     (h c _ (Cert.KernelIdeal.Gen.mem_uc Cert.KernelIdeal.main_arg10 (by decide))).trans (Cert.KernelIdeal.Gen.W13_main_arg10 m ρ c),
     (h c _ (Cert.KernelIdeal.Gen.mem_uc Cert.KernelIdeal.main_arg11 (by decide))).trans (Cert.KernelIdeal.Gen.W13_main_arg11 m ρ c)⟩)
    (Cert.KernelIdeal.WholeRun.run_all m ρ)

/-- From memories that agree on the arguments both programs end with the same result: the reference's last stage of
    the arguments. -/
theorem algebraic : Cert.algebraic_KernelIdeal_ReferenceIdeal := by
  intro m ρ m' ρ' _ hagree
  refine ⟨fun c => Cert.ReferenceIdeal.Read.val_main_v111 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v111_eq, a0, a1, a2, a3, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
